-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S64x512 : Shape := ⟨2, ![64, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S2x4096x512 .f32) (main_arg1 : FVec F S64x512 .f32) (main_arg2 : FVec F S64x512 .f32) (main_arg3 : FVec F S64x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S2x4096x512 : Shape := ⟨3, ![2, 4096, 512]⟩
abbrev S64x512 : Shape := ⟨2, ![64, 512]⟩
abbrev S2x4096x64 : Shape := ⟨3, ![2, 4096, 64]⟩
abbrev S1x4096x512 : Shape := ⟨3, ![1, 4096, 512]⟩
abbrev S1x512x64 : Shape := ⟨3, ![1, 512, 64]⟩
abbrev S4096x64 : Shape := ⟨2, ![4096, 64]⟩
abbrev S4096x512 : Shape := ⟨2, ![4096, 512]⟩
abbrev S1x512x512 : Shape := ⟨3, ![1, 512, 512]⟩
abbrev S512x512 : Shape := ⟨2, ![512, 512]⟩
abbrev S512x64 : Shape := ⟨2, ![512, 64]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x4096x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S2x4096x64, .f32⟩
  | .local _ .vmem, ⟨0, _⟩ => ⟨S1x4096x512, .f32⟩
  | .local _ .vmem, ⟨1, _⟩ => ⟨S1x4096x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S1x512x64, .f32⟩
  | .local _ .vmem, ⟨6, _⟩ => ⟨S1x512x64, .f32⟩
  | .local _ .vmem, ⟨7, _⟩ => ⟨S4096x64, .f32⟩
  | .local _ .vmem, ⟨8, _⟩ => ⟨S4096x64, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S64x512_S64x512_0_0 : ∀ a, (![0, 0] : Fin 2 → Nat) a + S64x512.size a ≤ S64x512.size a
  h_S64x512 : 0 < S64x512.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  h_S1x512x512 : 0 < S1x512x512.numel
  shapeCasts_S1x512x512_S512x512 : S1x512x512.ShapeCasts S512x512
  reduces_S512x4096_S512 : S512x4096.Reduces [1] S512
  shapeCasts_S512_S512x1 : S512.ShapeCasts S512x1
  broadcasts_S512x1_S512x4096 : S512x1.Broadcasts S512x4096
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S4096x512_S64x512_S4096x64_1_1_0_0_n_n_wf : DotDims.WF S4096x512 S64x512 S4096x64 [1] [1] [0] [0] [] []
  dot_S512x512_S64x512_S512x64_1_1_0_0_n_n_wf : DotDims.WF S512x512 S64x512 S512x64 [1] [1] [0] [0] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x512.size a ≤ S1x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S2x4096x512.size a
  hwx0_0 : ∀ i : grid0.Coords, EltTy.bits .f32 = 32 ∨ (Rect.block (s := S2x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S2x4096x64.size a
  hwx0_4 : ∀ i : grid0.Coords, EltTy.bits .f32 = 32 ∨ (Rect.block (s := S2x4096x64) S1x512x64.size (cc0_transform_4 i) (hinb0_4 i)).WholeWords (EltTy.packing .f32)

variable [Facts₀]

def dot_S4096x512_S64x512_S4096x64_1_1_0_0_n_n : DotDims S4096x512 S64x512 S4096x64 where
  lhsContracting := [1]
  rhsContracting := [1]
  lhsNonContracting := [0]
  rhsNonContracting := [0]
  lhsBatch := []
  rhsBatch := []
  wf := dot_S4096x512_S64x512_S4096x64_1_1_0_0_n_n_wf
def dot_S512x512_S64x512_S512x64_1_1_0_0_n_n : DotDims S512x512 S64x512 S512x64 where
  lhsContracting := [1]
  rhsContracting := [1]
  lhsNonContracting := [0]
  rhsNonContracting := [0]
  lhsBatch := []
  rhsBatch := []
  wf := dot_S512x512_S64x512_S512x64_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x512 : Shape := ⟨3, ![2, 4096, 512]⟩
abbrev S64x512 : Shape := ⟨2, ![64, 512]⟩
abbrev S2x4096x64 : Shape := ⟨3, ![2, 4096, 64]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S2x4096x64, .f32⟩
  | .hbm, ⟨5, _⟩ => ⟨S2x4096x64, .f32⟩
  | .hbm, ⟨6, _⟩ => ⟨S2x4096x64, .f32⟩
  | .hbm, ⟨7, _⟩ => ⟨S2x4096x4096, .f32⟩
  | .hbm, ⟨8, _⟩ => ⟨S_, .f32⟩
  | .hbm, ⟨9, _⟩ => ⟨S2x4096x4096, .f32⟩
  | .hbm, ⟨10, _⟩ => ⟨S2x4096x4096, .f32⟩
  | .hbm, ⟨11, _⟩ => ⟨S_, .f32⟩
  | .hbm, ⟨12, _⟩ => ⟨S2x4096, .f32⟩
  | .hbm, ⟨13, _⟩ => ⟨S_, .f32⟩
  | .hbm, ⟨14, _⟩ => ⟨S2x4096, .f32⟩
  | .hbm, ⟨15, _⟩ => ⟨S2x4096, .f32⟩
  | .hbm, ⟨16, _⟩ => ⟨S2x4096x1, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S2x4096x4096, .f32⟩
  | .hbm, ⟨24, _⟩ => ⟨S2x4096x4096, .f32⟩
  | .hbm, ⟨25, _⟩ => ⟨S2x4096x64, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  dot_S2x4096x512_S64x512_S2x4096x64_2_1_01_0_n_n_wf : DotDims.WF S2x4096x512 S64x512 S2x4096x64 [2] [1] [0, 1] [0] [] []
  dot_S2x4096x64_S2x4096x64_S2x4096x4096_2_2_1_1_0_0_wf : DotDims.WF S2x4096x64 S2x4096x64 S2x4096x4096 [2] [2] [1] [1] [0] [0]
  dot_S2x4096x4096_S2x4096x64_S2x4096x64_2_1_1_2_0_0_wf : DotDims.WF S2x4096x4096 S2x4096x64 S2x4096x64 [2] [1] [1] [2] [0] [0]

variable [Facts₀]

def dot_S2x4096x512_S64x512_S2x4096x64_2_1_01_0_n_n : DotDims S2x4096x512 S64x512 S2x4096x64 where
  lhsContracting := [2]
  rhsContracting := [1]
  lhsNonContracting := [0, 1]
  rhsNonContracting := [0]
  lhsBatch := []
  rhsBatch := []
  wf := dot_S2x4096x512_S64x512_S2x4096x64_2_1_01_0_n_n_wf
def dot_S2x4096x64_S2x4096x64_S2x4096x4096_2_2_1_1_0_0 : DotDims S2x4096x64 S2x4096x64 S2x4096x4096 where
  lhsContracting := [2]
  rhsContracting := [2]
  lhsNonContracting := [1]
  rhsNonContracting := [1]
  lhsBatch := [0]
  rhsBatch := [0]
  wf := dot_S2x4096x64_S2x4096x64_S2x4096x4096_2_2_1_1_0_0_wf
def dot_S2x4096x4096_S2x4096x64_S2x4096x64_2_1_1_2_0_0 : DotDims S2x4096x4096 S2x4096x64 S2x4096x64 where
  lhsContracting := [2]
  rhsContracting := [1]
  lhsNonContracting := [1]
  rhsNonContracting := [2]
  lhsBatch := [0]
  rhsBatch := [0]
  wf := dot_S2x4096x4096_S2x4096x64_S2x4096x64_2_1_1_2_0_0_wf

class Facts : Prop extends Facts₀ where

variable [Facts]
-- ==== Proof.Stored.lean ====
/-
  What one grid point of the attention kernel leaves behind, as values.

  At the first query tile of a batch the body projects the batch's whole X block against Wk and
  Wv and stores the two [4096, 64] results into its two scratch buffers; at every tile it reads a
  [1, 512, 512] slice of the X block (rows 512·qi … 512·qi + 511), the query weights and the two
  scratch buffers, and stores one [1, 512, 64] output tile.  Each of those stores covers its
  buffer whole, so what the buffer holds afterwards is the store's payload: the body's pure
  arithmetic applied to what the loads read.
-/
import proofs.«107026_j2886218023621_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Stored

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The query tile of grid point `i`: the 512 rows of the batch's X block that start at row
    512 · (i 1), as the body's sliced load reads them. -/
def queryTile (i : grid0.Coords) (x0 : Vec F S1x4096x512 .f32) : Vec F S1x512x512 .f32 :=
  View.ld x0 (Rect.unit (s := S1x4096x512) (k0_off1 i) S1x512x512.size (k0_off1_inb i))

/-- At a batch's first tile the first scratch ends holding the key projection of the X block. -/
theorem keys_first (c : Dev nD) (i : grid0.Coords) (arg2 : Memref sig .tc .vmem S1x4096x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x512x64 .f32) (harg6 : arg6.IsWhole) (arg7 : Memref sig .tc .vmem S4096x64 .f32) (harg7 : arg7.IsWhole) (arg8 : Memref sig .tc .vmem S4096x64 .f32) (harg8 : arg8.IsWhole) (hc0 : cond0_0 i)
    (x0 : Vec F S1x4096x512 .f32) (x1 : Vec F S64x512 .f32) (x2 : Vec F S64x512 .f32) (x3 : Vec F S64x512 .f32) :
    sout0_A_0 c i arg2 harg2 arg3 harg3 arg4 harg4 arg5 harg5 arg6 harg6 arg7 harg7 arg8 harg8 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero zeros2]
  simp only [View.readAt_eq_ld, harg2.read_unread, harg4.read_unread, View.ld_unit_zero (S := S1x4096x512) zeros3, View.ld_unit_zero (S := S64x512) zeros2]

/-- … and the second scratch the value projection. -/
theorem values_first (c : Dev nD) (i : grid0.Coords) (arg2 : Memref sig .tc .vmem S1x4096x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x512x64 .f32) (harg6 : arg6.IsWhole) (arg7 : Memref sig .tc .vmem S4096x64 .f32) (harg7 : arg7.IsWhole) (arg8 : Memref sig .tc .vmem S4096x64 .f32) (harg8 : arg8.IsWhole) (hc0 : cond0_0 i)
    (x0 : Vec F S1x4096x512 .f32) (x1 : Vec F S64x512 .f32) (x2 : Vec F S64x512 .f32) (x3 : Vec F S64x512 .f32) :
    sout0_A_1 c i arg2 harg2 arg3 harg3 arg4 harg4 arg5 harg5 arg6 harg6 arg7 harg7 arg8 harg8 hc0 x0 x1 x2 x3 = k0_pay3 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero zeros2]
  simp only [View.readAt_eq_ld, harg2.read_unread, harg5.read_unread, View.ld_unit_zero (S := S1x4096x512) zeros3, View.ld_unit_zero (S := S64x512) zeros2]

/-- At a batch's first tile the output tile is computed from the projections just stored. -/
theorem tile_first (c : Dev nD) (i : grid0.Coords) (arg2 : Memref sig .tc .vmem S1x4096x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x512x64 .f32) (harg6 : arg6.IsWhole) (arg7 : Memref sig .tc .vmem S4096x64 .f32) (harg7 : arg7.IsWhole) (arg8 : Memref sig .tc .vmem S4096x64 .f32) (harg8 : arg8.IsWhole) (hc0 : cond0_0 i)
    (x0 : Vec F S1x4096x512 .f32) (x1 : Vec F S64x512 .f32) (x2 : Vec F S64x512 .f32) (x3 : Vec F S64x512 .f32) :
    out0_A_4 c i arg2 harg2 arg3 harg3 arg4 harg4 arg5 harg5 arg6 harg6 arg7 harg7 arg8 harg8 hc0 x0 x1 x2 x3 = k0_pay4 (queryTile i x0) x1 (k0_pay2 x0 x2) (k0_pay3 x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero (S := S1x512x64) zeros3]
  simp only [View.readAt_eq_ld, harg2.read_unread, harg3.read_unread, harg4.read_unread, harg5.read_unread,
    View.readCov_unit_zero (S := S4096x64) _ zeros2, View.ld_unit_zero (S := S1x4096x512) zeros3, View.ld_unit_zero (S := S64x512) zeros2]
  rfl

/-- At a later tile the output tile is computed from what the scratch buffers held on entry. -/
theorem tile_later (c : Dev nD) (i : grid0.Coords) (arg2 : Memref sig .tc .vmem S1x4096x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x512x64 .f32) (harg6 : arg6.IsWhole) (arg7 : Memref sig .tc .vmem S4096x64 .f32) (harg7 : arg7.IsWhole) (arg8 : Memref sig .tc .vmem S4096x64 .f32) (harg8 : arg8.IsWhole) (hc0 : ¬cond0_0 i)
    (x0 : Vec F S1x4096x512 .f32) (x1 : Vec F S64x512 .f32) (x2 : Vec F S64x512 .f32) (x3 : Vec F S64x512 .f32) (xs0 xs1 : Vec F S4096x64 .f32) :
    out0_B_4 c i arg2 harg2 arg3 harg3 arg4 harg4 arg5 harg5 arg6 harg6 arg7 harg7 arg8 harg8 hc0 x0 x1 x2 x3 xs0 xs1 = k0_pay4 (queryTile i x0) x1 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_words
  rw [View.canon_unit_zero (S := S1x512x64) zeros3]
  simp only [View.readAt_eq_ld, harg2.read_unread, harg3.read_unread, harg7.read_unread, harg8.read_unread,
    View.ld_unit_zero (S := S4096x64) zeros2, View.ld_unit_zero (S := S64x512) zeros2]
  rfl

end Cert.KernelIdeal.Stored

end
-- ==== Proof.Carried.lean ====
/-
  The two scratch buffers across the grid, and the output tile of every grid point.

  The grid is 2 batches by 8 query tiles, run in row-major order: point t is tile t mod 8 of batch
  t / 8.  The X window's block at point t is the whole [4096, 512] slab of batch t / 8; the three
  weight windows' blocks are the whole weight matrices at every point.  The body stores the key
  and value projections of the batch's slab into the scratch buffers at the batch's first tile and
  leaves them alone at the other seven, so by induction on the point the scratch buffers hold,
  after every point, the projections of that point's own batch.  Hence every point's output tile
  is the body's arithmetic on its query rows, the query weights, and the projections of its batch.
-/
import proofs.«107026_j2886218023621_2_alg».proof.Proof.Gen.KernelIdeal.Value
import proofs.«107026_j2886218023621_2_alg».proof.Proof.Stored
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen Idealize.ShloMosaic.ValueIdx

variable {F : FTy → Type} [FloatOps F]
variable (m : (ℓ : Loc nD τ sig) → Buf (Elt F) ℓ)

/-- Where each window's block sits at grid point t, and the point's tile coordinate. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ (grid0.coords t 1).val = t.val % 8 :=
  (by decide +kernel : ∀ t : Fin grid0.N, _)

theorem N16 : cfg0.N = 16 := N_0

/-- The batch of grid point t. -/
def batchOf (t : Fin cfg0.N) : Fin 2 := ⟨t.val / 8, by have h : t.val < 16 := lt_of_lt_of_eq t.isLt N16; omega⟩

/-- The [1, 4096, 512] slab of batch b of X. -/
def slab (X : S2x4096x512.Idx → Elt F .f32) (b : Fin 2) : Vec F S1x4096x512 .f32 := fun y => X (ix3 b (y 1) (y 2))

/-- The X window's block at point t is the slab of the point's batch. -/
theorem xblock_eq (c : Dev nD) (t : Fin cfg0.N) :
    (iblk m c 0 t : Vec F S1x4096x512 .f32) = slab (m ((c : Thread nD τ).loc main_arg0)) (batchOf t) := by
  obtain ⟨e0, e1, e2, -⟩ := idx_facts t
  funext y
  unfold iblk slab
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * (y 0).val = t.val / 8; have hy : (y 0).val < 1 := (y 0).isLt; omega
  | ⟨1, _⟩ => show win0_0.index t (1 : Fin 3) * 4096 + 1 * (y 1).val = (y 1).val; omega
  | ⟨2, _⟩ => show win0_0.index t (2 : Fin 3) * 512 + 1 * (y 2).val = (y 2).val; omega

/-- The weight windows' blocks are the weight matrices. -/
theorem wq_eq (c : Dev nD) (t : Fin cfg0.N) : (iblk m c 1 t : Vec F S64x512 .f32) = m ((c : Thread nD τ).loc main_arg1) := by
  obtain ⟨-, -, -, e0, e1, -⟩ := idx_facts t
  funext y
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 64 + 1 * (y 0).val = (y 0).val; omega
  | ⟨1, _⟩ => show win0_1.index t (1 : Fin 2) * 512 + 1 * (y 1).val = (y 1).val; omega

theorem wk_eq (c : Dev nD) (t : Fin cfg0.N) : (iblk m c 2 t : Vec F S64x512 .f32) = m ((c : Thread nD τ).loc main_arg2) := by
  obtain ⟨-, -, -, -, -, e0, e1, -⟩ := idx_facts t
  funext y
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 2) * 64 + 1 * (y 0).val = (y 0).val; omega
  | ⟨1, _⟩ => show win0_2.index t (1 : Fin 2) * 512 + 1 * (y 1).val = (y 1).val; omega

theorem wv_eq (c : Dev nD) (t : Fin cfg0.N) : (iblk m c 3 t : Vec F S64x512 .f32) = m ((c : Thread nD τ).loc main_arg3) := by
  obtain ⟨-, -, -, -, -, -, -, e0, e1, -⟩ := idx_facts t
  funext y
  unfold iblk
  rw [View.read_apply]
  show m ((c : Thread nD τ).loc main_arg3) _ = m ((c : Thread nD τ).loc main_arg3) _
  congr 1
  funext a
  apply Fin.ext
  match a with
  | ⟨0, _⟩ => show win0_3.index t (0 : Fin 2) * 64 + 1 * (y 0).val = (y 0).val; omega
  | ⟨1, _⟩ => show win0_3.index t (1 : Fin 2) * 512 + 1 * (y 1).val = (y 1).val; omega

/-- The key and value projections of batch b's slab. -/
abbrev keysOf (c : Dev nD) (b : Fin 2) : FVec F S4096x64 .f32 :=
  k0_pay2 (slab (m ((c : Thread nD τ).loc main_arg0)) b) (m ((c : Thread nD τ).loc main_arg2))
abbrev valuesOf (c : Dev nD) (b : Fin 2) : FVec F S4096x64 .f32 :=
  k0_pay3 (slab (m ((c : Thread nD τ).loc main_arg0)) b) (m ((c : Thread nD τ).loc main_arg3))

/-- After every grid point the scratch buffers hold the projections of that point's batch. -/
theorem carried (c : Dev nD) : ∀ (n : ℕ) (hn : n < cfg0.N),
    (outsAt0 m c n hn).2.1 = keysOf m c (batchOf ⟨n, hn⟩) ∧ (outsAt0 m c n hn).2.2 = valuesOf m c (batchOf ⟨n, hn⟩)
  | 0, hn => by
    rw [outsAt0_A m c ⟨0, hn⟩ rfl]
    dsimp only
    refine ⟨(Stored.keys_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) _ (iblk m c 0 ⟨0, hn⟩) (iblk m c 1 ⟨0, hn⟩) (iblk m c 2 ⟨0, hn⟩) (iblk m c 3 ⟨0, hn⟩)).trans ?_,
      (Stored.values_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) _ (iblk m c 0 ⟨0, hn⟩) (iblk m c 1 ⟨0, hn⟩) (iblk m c 2 ⟨0, hn⟩) (iblk m c 3 ⟨0, hn⟩)).trans ?_⟩
    · rw [xblock_eq, wk_eq]
    · rw [xblock_eq, wv_eq]
  | n + 1, hn => by
    by_cases h0 : (n + 1) % 8 = 0
    · rw [outsAt0_A m c ⟨n + 1, hn⟩ h0]
      dsimp only
      refine ⟨(Stored.keys_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) _ (iblk m c 0 ⟨n + 1, hn⟩) (iblk m c 1 ⟨n + 1, hn⟩) (iblk m c 2 ⟨n + 1, hn⟩) (iblk m c 3 ⟨n + 1, hn⟩)).trans ?_,
        (Stored.values_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) _ (iblk m c 0 ⟨n + 1, hn⟩) (iblk m c 1 ⟨n + 1, hn⟩) (iblk m c 2 ⟨n + 1, hn⟩) (iblk m c 3 ⟨n + 1, hn⟩)).trans ?_⟩
      · rw [xblock_eq, wk_eq]
      · rw [xblock_eq, wv_eq]
    · rw [outsAt0_B m c ⟨n + 1, hn⟩ h0]
      dsimp only
      unfold sout0_B_0 sout0_B_1
      have ih := carried c n (Nat.lt_of_succ_lt hn)
      have hb : batchOf ⟨n + 1, hn⟩ = batchOf ⟨n, Nat.lt_of_succ_lt hn⟩ := Fin.ext (by show (n + 1) / 8 = n / 8; omega)
      rw [hb]
      exact ih

/-- Every point's output tile: the body's arithmetic on the point's query rows, the query weights,
    and the key and value projections of the point's batch. -/
theorem tile_eq (c : Dev nD) (t : Fin cfg0.N) :
    (outsAt0 m c t.val t.isLt).1
      = k0_pay4 (Stored.queryTile (grid0.coords t) (slab (m ((c : Thread nD τ).loc main_arg0)) (batchOf t)))
          (m ((c : Thread nD τ).loc main_arg1)) (keysOf m c (batchOf t)) (valuesOf m c (batchOf t)) := by
  by_cases h0 : t.val % 8 = 0
  · rw [outsAt0_A m c t h0]
    dsimp only
    refine (Stored.tile_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ (iblk m c 0 t) (iblk m c 1 t) (iblk m c 2 t) (iblk m c 3 t)).trans ?_
    rw [xblock_eq, wq_eq, wk_eq, wv_eq]
  · rw [outsAt0_B m c t h0]
    dsimp only
    refine (Stored.tile_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ (iblk m c 0 t) (iblk m c 1 t) (iblk m c 2 t) (iblk m c 3 t) _ _).trans ?_
    have hN : t.val < 16 := lt_of_lt_of_eq t.isLt N16
    have ih := carried m c (t.val - 1) (Nat.lt_of_le_of_lt (Nat.sub_le _ _) t.isLt)
    have hb : batchOf ⟨t.val - 1, Nat.lt_of_le_of_lt (Nat.sub_le _ _) t.isLt⟩ = batchOf t :=
      Fin.ext (by show (t.val - 1) / 8 = t.val / 8; omega)
    rw [ih.1, ih.2, hb, xblock_eq, wq_eq]

end Cert.KernelIdeal.Carried

end
-- ==== Proof.AttnSpec.lean ====
/-
  Single-head attention over the extended reals, as one function of the four argument arrays.

  For a batch b and a query row q the result row is
      out[b, q, v] = Σ_s softmax_s( 8 · Σ_k Q[b,q,k] · K[b,s,k] ) · V[b,s,v],
  where Q, K, V are the rows of X[b] against the rows of Wq, Wk, Wv
  (P[b, s, k] = Σ_e X[b, s, e] · W[k, e]), the softmax is the exponential of the score less the
  row's maximum, divided by the sum of those exponentials over the 4096 keys, and the factor 8
  is the square root of the head width 64.

  The row function `attnRow` depends only on the query row and on the key and value matrices of
  the batch: it is stated over those three, so that a tile of 512 query rows of a batch and the
  whole [2, 4096, 64] result are instances of the one definition.
-/
import Idealize.ShloMosaic.PureOps.Ideal
import Idealize.ShloMosaic.Lib.ValueIdx

noncomputable section

namespace Cert.Attn

open Idealize.ShloMosaic Idealize.ShloMosaic.ValueIdx

/-- The score of a query row against key row `s`, times 8 (the f32 word `0x41000000`). -/
def rowScore (q : Fin 64 → EReal) (K : Fin 4096 → Fin 64 → EReal) (s : Fin 4096) : EReal :=
  (∑ k : Fin 64, q k * K s k) * Ideal.ofBits .f32 0x41000000#32

/-- The row's maximum score: the fold of `max` over the 4096 keys from −∞ (the f32 word `0xFF800000`). -/
def rowMax (q : Fin 64 → EReal) (K : Fin 4096 → Fin 64 → EReal) : EReal :=
  (Finset.univ : Finset (Fin 4096)).fold max (Ideal.ofBits .f32 0xFF800000#32) (rowScore q K)

/-- The exponential of a score less the row's maximum. -/
def rowExp (q : Fin 64 → EReal) (K : Fin 4096 → Fin 64 → EReal) (s : Fin 4096) : EReal :=
  Ideal.exp (rowScore q K s - rowMax q K)

/-- The sum of those exponentials over the keys. -/
def rowSum (q : Fin 64 → EReal) (K : Fin 4096 → Fin 64 → EReal) : EReal :=
  ∑ s : Fin 4096, rowExp q K s

/-- One row of the attention output: the softmax weights against the value matrix. -/
def attnRow (q : Fin 64 → EReal) (K V : Fin 4096 → Fin 64 → EReal) (v : Fin 64) : EReal :=
  ∑ s : Fin 4096, Ideal.div (rowExp q K s) (rowSum q K) * V s v

/-- The three argument and result shapes. -/
abbrev SX : Shape := ⟨3, ![2, 4096, 512]⟩
abbrev SW : Shape := ⟨2, ![64, 512]⟩
abbrev SO : Shape := ⟨3, ![2, 4096, 64]⟩

/-- Row `s` of batch `b` of `X` against row `k` of a weight matrix. -/
def proj (X : SX.Idx → EReal) (W : SW.Idx → EReal) (b : Fin 2) (s : Fin 4096) (k : Fin 64) : EReal :=
  ∑ e : Fin 512, X (ix3 b s e) * W (ix2 k e)

/-- The whole result: at (b, q, v), the attention row of query row (b, q) against the keys and
    values of batch b. -/
def attn (X : SX.Idx → EReal) (Wq Wk Wv : SW.Idx → EReal) : SO.Idx → EReal := fun i =>
  attnRow (fun k => proj X Wq (i 0) (i 1) k) (fun s k => proj X Wk (i 0) s k) (fun s v => proj X Wv (i 0) s v) (i 2)

end Cert.Attn

end
-- ==== Proof.KernelRows.lean ====
/-
  The three values the attention kernel's body stores, each read at one index, over the extended reals.

  The body projects the batch's 4096 rows onto the key and value weights once (two products of a
  [4096, 512] matrix with the transpose of a [64, 512] one) and keeps both [4096, 64] results; then,
  for a tile of 512 query rows, it projects the tile onto the query weights, takes each row's scores
  against the 4096 keys, scales them by 8, subtracts the row's maximum, exponentiates, divides by the
  row's sum and multiplies by the values.  Every step below reads ONE operation at ONE index: a cast
  that drops or adds a unit axis keeps the other coordinates, a column broadcast along a row reads the
  row's entry, a product of matrices is the sum over the contracted coordinate, a lane maximum is the
  fold of `max` over the row and a lane sum the sum over the row.  No algebraic law is used and no
  entry is assumed finite.
-/
import proofs.«107026_j2886218023621_2_alg».proof.Proof.Gen.KernelIdeal.Skeleton
import proofs.«107026_j2886218023621_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Rows
open Cert.KernelIdeal Cert.KernelIdeal.Gen Idealize.ShloMosaic Idealize.ShloMosaic.ValueIdx

/-! ## The products of matrices, each at one entry

Each product contracts ONE axis of each factor.  Its entry is the sum, over that axis's coordinate `e`,
of the left factor at (the entry's row, `e`) times the right factor at (the entry's column, `e`) — or at
(`e`, the entry's column) when the right factor is not transposed.  The four coordinate facts ahead of
each product say which coordinate of the entry, or `e`, each operand index carries. -/

theorem proj4096_lhs0 (i : S4096x64.Idx) (q : dot_S4096x512_S64x512_S4096x64_1_1_0_0_n_n.contr.Idx) :
    (dot_S4096x512_S64x512_S4096x64_1_1_0_0_n_n.lhsIdx i q 0).val = (i 0).val := by
  unfold DotDims.lhsIdx
  rw [dif_neg (show ¬(0 : Fin S4096x512.rank) ∈ dot_S4096x512_S64x512_S4096x64_1_1_0_0_n_n.lhsBatch by decide),
    dif_pos (show (0 : Fin S4096x512.rank) ∈ dot_S4096x512_S64x512_S4096x64_1_1_0_0_n_n.lhsNonContracting by decide)]
  rfl
theorem proj4096_lhs1 (i : S4096x64.Idx) (q : dot_S4096x512_S64x512_S4096x64_1_1_0_0_n_n.contr.Idx) :
    (dot_S4096x512_S64x512_S4096x64_1_1_0_0_n_n.lhsIdx i q 1).val = (q ⟨0, by decide⟩).val :=
  dot_S4096x512_S64x512_S4096x64_1_1_0_0_n_n.lhsIdx_val_of_single rfl i q
theorem proj4096_rhs0 (i : S4096x64.Idx) (q : dot_S4096x512_S64x512_S4096x64_1_1_0_0_n_n.contr.Idx) :
    (dot_S4096x512_S64x512_S4096x64_1_1_0_0_n_n.rhsIdx i q 0).val = (i 1).val := by
  unfold DotDims.rhsIdx
  rw [dif_neg (show ¬(0 : Fin S64x512.rank) ∈ dot_S4096x512_S64x512_S4096x64_1_1_0_0_n_n.rhsBatch by decide),
    dif_pos (show (0 : Fin S64x512.rank) ∈ dot_S4096x512_S64x512_S4096x64_1_1_0_0_n_n.rhsNonContracting by decide)]
  rfl
theorem proj4096_rhs1 (i : S4096x64.Idx) (q : dot_S4096x512_S64x512_S4096x64_1_1_0_0_n_n.contr.Idx) :
    (dot_S4096x512_S64x512_S4096x64_1_1_0_0_n_n.rhsIdx i q 1).val = (q ⟨0, by decide⟩).val :=
  dot_S4096x512_S64x512_S4096x64_1_1_0_0_n_n.rhsIdx_val_of_single rfl i q
/-- A [4096, 512] matrix times the transpose of a [64, 512] one, into zero: entry (s, k) is the sum
    over the 512 shared columns of row s of the first against row k of the second. -/
theorem proj4096_apply (l : FVec Ideal S4096x512 .f32) (w : FVec Ideal S64x512 .f32) (s : Fin 4096) (k : Fin 64) :
    matmul (F := Ideal) dot_S4096x512_S64x512_S4096x64_1_1_0_0_n_n (some .fp32) l w
        (constant (F := Ideal) S4096x64 .f32 0x00000000#32) (ix2 s k)
      = ∑ e : Fin 512, l (ix2 s e) * w (ix2 k e) := by
  refine (Ideal.matmul_constant_zero_apply dot_S4096x512_S64x512_S4096x64_1_1_0_0_n_n (some .fp32) l w (ix2 s k)).trans ?_
  rw [← Equiv.sum_comp (contrEquiv1 dot_S4096x512_S64x512_S4096x64_1_1_0_0_n_n 512 rfl rfl).symm]
  refine Finset.sum_congr rfl fun e _ => ?_
  have he := contrEquiv1_symm_val dot_S4096x512_S64x512_S4096x64_1_1_0_0_n_n 512 rfl rfl e
  have el : dot_S4096x512_S64x512_S4096x64_1_1_0_0_n_n.lhsIdx (ix2 s k)
      ((contrEquiv1 dot_S4096x512_S64x512_S4096x64_1_1_0_0_n_n 512 rfl rfl).symm e) = ix2 s e :=
    funext fun a => Fin.ext (by
      match a with
      | ⟨0, _⟩ => exact proj4096_lhs0 _ _
      | ⟨1, _⟩ => exact (proj4096_lhs1 _ _).trans he)
  have er : dot_S4096x512_S64x512_S4096x64_1_1_0_0_n_n.rhsIdx (ix2 s k)
      ((contrEquiv1 dot_S4096x512_S64x512_S4096x64_1_1_0_0_n_n 512 rfl rfl).symm e) = ix2 k e :=
    funext fun a => Fin.ext (by
      match a with
      | ⟨0, _⟩ => exact proj4096_rhs0 _ _
      | ⟨1, _⟩ => exact (proj4096_rhs1 _ _).trans he)
  rw [el, er]

theorem proj512_lhs0 (i : S512x64.Idx) (q : dot_S512x512_S64x512_S512x64_1_1_0_0_n_n.contr.Idx) :
    (dot_S512x512_S64x512_S512x64_1_1_0_0_n_n.lhsIdx i q 0).val = (i 0).val := by
  unfold DotDims.lhsIdx
  rw [dif_neg (show ¬(0 : Fin S512x512.rank) ∈ dot_S512x512_S64x512_S512x64_1_1_0_0_n_n.lhsBatch by decide),
    dif_pos (show (0 : Fin S512x512.rank) ∈ dot_S512x512_S64x512_S512x64_1_1_0_0_n_n.lhsNonContracting by decide)]
  rfl
theorem proj512_lhs1 (i : S512x64.Idx) (q : dot_S512x512_S64x512_S512x64_1_1_0_0_n_n.contr.Idx) :
    (dot_S512x512_S64x512_S512x64_1_1_0_0_n_n.lhsIdx i q 1).val = (q ⟨0, by decide⟩).val :=
  dot_S512x512_S64x512_S512x64_1_1_0_0_n_n.lhsIdx_val_of_single rfl i q
theorem proj512_rhs0 (i : S512x64.Idx) (q : dot_S512x512_S64x512_S512x64_1_1_0_0_n_n.contr.Idx) :
    (dot_S512x512_S64x512_S512x64_1_1_0_0_n_n.rhsIdx i q 0).val = (i 1).val := by
  unfold DotDims.rhsIdx
  rw [dif_neg (show ¬(0 : Fin S64x512.rank) ∈ dot_S512x512_S64x512_S512x64_1_1_0_0_n_n.rhsBatch by decide),
    dif_pos (show (0 : Fin S64x512.rank) ∈ dot_S512x512_S64x512_S512x64_1_1_0_0_n_n.rhsNonContracting by decide)]
  rfl
theorem proj512_rhs1 (i : S512x64.Idx) (q : dot_S512x512_S64x512_S512x64_1_1_0_0_n_n.contr.Idx) :
    (dot_S512x512_S64x512_S512x64_1_1_0_0_n_n.rhsIdx i q 1).val = (q ⟨0, by decide⟩).val :=
  dot_S512x512_S64x512_S512x64_1_1_0_0_n_n.rhsIdx_val_of_single rfl i q
/-- The same product for a tile of 512 rows: entry (r, k) is the sum over the 512 shared columns of
    row r of the tile against row k of the weights. -/
theorem proj512_apply (l : FVec Ideal S512x512 .f32) (w : FVec Ideal S64x512 .f32) (r : Fin 512) (k : Fin 64) :
    matmul (F := Ideal) dot_S512x512_S64x512_S512x64_1_1_0_0_n_n (some .fp32) l w
        (constant (F := Ideal) S512x64 .f32 0x00000000#32) (ix2 r k)
      = ∑ e : Fin 512, l (ix2 r e) * w (ix2 k e) := by
  refine (Ideal.matmul_constant_zero_apply dot_S512x512_S64x512_S512x64_1_1_0_0_n_n (some .fp32) l w (ix2 r k)).trans ?_
  rw [← Equiv.sum_comp (contrEquiv1 dot_S512x512_S64x512_S512x64_1_1_0_0_n_n 512 rfl rfl).symm]
  refine Finset.sum_congr rfl fun e _ => ?_
  have he := contrEquiv1_symm_val dot_S512x512_S64x512_S512x64_1_1_0_0_n_n 512 rfl rfl e
  have el : dot_S512x512_S64x512_S512x64_1_1_0_0_n_n.lhsIdx (ix2 r k)
      ((contrEquiv1 dot_S512x512_S64x512_S512x64_1_1_0_0_n_n 512 rfl rfl).symm e) = ix2 r e :=
    funext fun a => Fin.ext (by
      match a with
      | ⟨0, _⟩ => exact proj512_lhs0 _ _
      | ⟨1, _⟩ => exact (proj512_lhs1 _ _).trans he)
  have er : dot_S512x512_S64x512_S512x64_1_1_0_0_n_n.rhsIdx (ix2 r k)
      ((contrEquiv1 dot_S512x512_S64x512_S512x64_1_1_0_0_n_n 512 rfl rfl).symm e) = ix2 k e :=
    funext fun a => Fin.ext (by
      match a with
      | ⟨0, _⟩ => exact proj512_rhs0 _ _
      | ⟨1, _⟩ => exact (proj512_rhs1 _ _).trans he)
  rw [el, er]

theorem qk_lhs0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide),
    dif_pos (show (0 : Fin S512x64.rank) ∈ dot_S512x64_S4096x64_S512x4096_1_1_0_0_n_n.lhsNonContracting by decide)]
  rfl
theorem qk_lhs1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
theorem qk_rhs0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide),
    dif_pos (show (0 : Fin S4096x64.rank) ∈ dot_S512x64_S4096x64_S512x4096_1_1_0_0_n_n.rhsNonContracting by decide)]
  rfl
theorem qk_rhs1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q
/-- Queries against keys: a [512, 64] matrix times the transpose of a [4096, 64] one; entry (r, s) is
    the sum over the 64 head coordinates of query row r against key row s. -/
theorem qk_apply (l : FVec Ideal S512x64 .f32) (w : FVec Ideal S4096x64 .f32) (r : Fin 512) (s : Fin 4096) :
    matmul (F := Ideal) dot_S512x64_S4096x64_S512x4096_1_1_0_0_n_n (some .fp32) l w
        (constant (F := Ideal) S512x4096 .f32 0x00000000#32) (ix2 r s)
      = ∑ e : Fin 64, l (ix2 r e) * w (ix2 s e) := by
  refine (Ideal.matmul_constant_zero_apply dot_S512x64_S4096x64_S512x4096_1_1_0_0_n_n (some .fp32) l w (ix2 r s)).trans ?_
  rw [← Equiv.sum_comp (contrEquiv1 dot_S512x64_S4096x64_S512x4096_1_1_0_0_n_n 64 rfl rfl).symm]
  refine Finset.sum_congr rfl fun e _ => ?_
  have he := contrEquiv1_symm_val dot_S512x64_S4096x64_S512x4096_1_1_0_0_n_n 64 rfl rfl e
  have el : dot_S512x64_S4096x64_S512x4096_1_1_0_0_n_n.lhsIdx (ix2 r s)
      ((contrEquiv1 dot_S512x64_S4096x64_S512x4096_1_1_0_0_n_n 64 rfl rfl).symm e) = ix2 r e :=
    funext fun a => Fin.ext (by
      match a with
      | ⟨0, _⟩ => exact qk_lhs0 _ _
      | ⟨1, _⟩ => exact (qk_lhs1 _ _).trans he)
  have er : dot_S512x64_S4096x64_S512x4096_1_1_0_0_n_n.rhsIdx (ix2 r s)
      ((contrEquiv1 dot_S512x64_S4096x64_S512x4096_1_1_0_0_n_n 64 rfl rfl).symm e) = ix2 s e :=
    funext fun a => Fin.ext (by
      match a with
      | ⟨0, _⟩ => exact qk_rhs0 _ _
      | ⟨1, _⟩ => exact (qk_rhs1 _ _).trans he)
  rw [el, er]

theorem pv_lhs0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl
theorem pv_lhs1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem pv_rhs0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem pv_rhs1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl
/-- Weights against values: a [512, 4096] matrix times a [4096, 64] one (not transposed); entry (r, v)
    is the sum over the 4096 keys of the weight at (r, key) times the value at (key, v). -/
theorem pv_apply (l : FVec Ideal S512x4096 .f32) (w : FVec Ideal S4096x64 .f32) (r : Fin 512) (v : Fin 64) :
    matmul (F := Ideal) dot_S512x4096_S4096x64_S512x64_1_0_0_1_n_n (some .fp32) l w
        (constant (F := Ideal) S512x64 .f32 0x00000000#32) (ix2 r v)
      = ∑ e : Fin 4096, l (ix2 r e) * w (ix2 e v) := by
  refine (Ideal.matmul_constant_zero_apply dot_S512x4096_S4096x64_S512x64_1_0_0_1_n_n (some .fp32) l w (ix2 r v)).trans ?_
  rw [← Equiv.sum_comp (contrEquiv1 dot_S512x4096_S4096x64_S512x64_1_0_0_1_n_n 4096 rfl rfl).symm]
  refine Finset.sum_congr rfl fun e _ => ?_
  have he := contrEquiv1_symm_val dot_S512x4096_S4096x64_S512x64_1_0_0_1_n_n 4096 rfl rfl e
  have el : dot_S512x4096_S4096x64_S512x64_1_0_0_1_n_n.lhsIdx (ix2 r v)
      ((contrEquiv1 dot_S512x4096_S4096x64_S512x64_1_0_0_1_n_n 4096 rfl rfl).symm e) = ix2 r e :=
    funext fun a => Fin.ext (by
      match a with
      | ⟨0, _⟩ => exact pv_lhs0 _ _
      | ⟨1, _⟩ => exact (pv_lhs1 _ _).trans he)
  have er : dot_S512x4096_S4096x64_S512x64_1_0_0_1_n_n.rhsIdx (ix2 r v)
      ((contrEquiv1 dot_S512x4096_S4096x64_S512x64_1_0_0_1_n_n 4096 rfl rfl).symm e) = ix2 e v :=
    funext fun a => Fin.ext (by
      match a with
      | ⟨0, _⟩ => exact (pv_rhs0 _ _).trans he
      | ⟨1, _⟩ => exact pv_rhs1 _ _)
  rw [el, er]

/-! ## The column of a lane reduction, broadcast along the row

A lane reduction of a [512, 4096] matrix gives a [512] vector; the body casts it to a [512, 1] column and
broadcasts the column to [512, 4096].  Read at (r, s) that is the vector's entry r, whatever s. -/

/-- A [512] vector as a column, broadcast along each row: at (r, s) it reads the vector at r. -/
theorem column_apply (v : FVec Ideal S512 .f32) (r : Fin 512) (s : Fin 4096) :
    broadcastTo S512x4096 (shapeCast S512x1 v shapeCasts_S512_S512x1) broadcasts_S512x1_S512x4096 (ix2 r s)
      = v (ix1 r) := by
  refine (broadcastTo_apply (shapeCast S512x1 v shapeCasts_S512_S512x1) broadcasts_S512x1_S512x4096
    (ix2 r s) (ix2 r (0 : Fin 1)) fun a => ?_).trans ?_
  · match a with
    | ⟨0, _⟩ => show r.val = if (512 : Nat) = 1 then 0 else r.val; rw [if_neg (by decide)]
    | ⟨1, _⟩ => show 0 = if (1 : Nat) = 1 then 0 else s.val; rw [if_pos rfl]
  · exact shapeCast_apply v shapeCasts_S512_S512x1 (ix2 r (0 : Fin 1)) (ix1 r) (by
      rw [Shape.rowMajor_val_one, Shape.rowMajor_val_two]
      show r.val = r.val * 1 + 0
      rw [Nat.mul_one, Nat.add_zero])

/-! ## The two lane reductions, each at one row -/

/-- The lane maximum of a [512, 4096] matrix at row r: the fold of `max`, from the value of the
    accumulator's word, over the row's 4096 entries. -/
theorem laneMax_apply (sc : FVec Ideal S512x4096 .f32) (r : Fin 512) :
    multiReduction (F := Ideal) .maximumf [1] S512 sc 0xFF800000#32 reduces_S512x4096_S512 (.inl rfl) rfl (ix1 r)
      = (Finset.univ : Finset (Fin 4096)).fold max (Ideal.ofBits .f32 0xFF800000#32) (fun s => sc (ix2 r s)) := by
  refine (Ideal.multiReduction_maximumf_single sc 0xFF800000#32 reduces_S512x4096_S512 (.inl rfl) rfl (ix1 r)).trans ?_
  refine congrArg (fun f : Fin 4096 → EReal =>
    (Finset.univ : Finset (Fin 4096)).fold max (Ideal.ofBits .f32 0xFF800000#32) f) (funext fun s => ?_)
  exact congrArg sc (funext fun a => Fin.ext (by match a with | ⟨0, _⟩ => rfl | ⟨1, _⟩ => rfl))

/-- The lane sum of a [512, 4096] matrix at row r: the sum of the row's 4096 entries. -/
theorem laneSum_apply (ex : FVec Ideal S512x4096 .f32) (r : Fin 512) :
    multiReduction (F := Ideal) .add [1] S512 ex 0x00000000#32 reduces_S512x4096_S512 (.inl rfl) rfl (ix1 r)
      = ∑ s : Fin 4096, ex (ix2 r s) := by
  refine (Ideal.multiReduction_add_single ex 0x00000000#32 reduces_S512x4096_S512 (.inl rfl) rfl (ix1 r)).trans ?_
  refine Finset.sum_congr rfl fun s _ => ?_
  exact congrArg ex (funext fun a => Fin.ext (by match a with | ⟨0, _⟩ => rfl | ⟨1, _⟩ => rfl))

/-! ## The key and value projections -/

/-- The batch's rows as a [4096, 512] matrix: the cast that drops the block's unit axis keeps (s, e). -/
theorem rows_apply (x0 : Vec Ideal S1x4096x512 .f32) (s : Fin 4096) (e : Fin 512) :
    k0_pay1 (F := Ideal) x0 (ix2 s e) = x0 (ix3 0 s e) := by
  unfold k0_pay1
  exact shapeCast_1ab_ab_apply x0 shapeCasts_S1x4096x512_S4096x512 s e

/-- the key projection stored into the first scratch, at (s, k) -/
theorem keyProj_apply (x0 : Vec Ideal S1x4096x512 .f32) (w : Vec Ideal S64x512 .f32) (s : Fin 4096) (k : Fin 64) :
    k0_pay2 (F := Ideal) x0 w (ix2 s k) = ∑ e : Fin 512, x0 (ix3 0 s e) * w (ix2 k e) := by
  unfold k0_pay2
  refine (congrFun (shapeCast_self _ shapeCasts_S4096x64_S4096x64) (ix2 s k)).trans ?_
  refine (proj4096_apply (k0_pay1 (F := Ideal) x0) w s k).trans ?_
  exact Finset.sum_congr rfl fun e _ => congrArg (· * w (ix2 k e)) (rows_apply x0 s e)

/-- the value projection stored into the second scratch, at (s, v) -/
theorem valProj_apply (x0 : Vec Ideal S1x4096x512 .f32) (w : Vec Ideal S64x512 .f32) (s : Fin 4096) (v : Fin 64) :
    k0_pay3 (F := Ideal) x0 w (ix2 s v) = ∑ e : Fin 512, x0 (ix3 0 s e) * w (ix2 v e) := by
  unfold k0_pay3
  refine (congrFun (shapeCast_self _ shapeCasts_S4096x64_S4096x64) (ix2 s v)).trans ?_
  refine (proj4096_apply (k0_pay1 (F := Ideal) x0) w s v).trans ?_
  exact Finset.sum_congr rfl fun e _ => congrArg (· * w (ix2 v e)) (rows_apply x0 s e)

/-! ## The query tile

The body's value for a tile is written here as three stages, each a function of the one before, and
`tile_eq` says the stored value is the third stage against the values, with the unit axis put back
(both sides are the same operations in the same order). -/

/-- The tile's scaled scores: the tile's rows against the query weights, that against the keys, times
    the splat of the word `0x41000000`. -/
def scores (x : FVec Ideal S1x512x512 .f32) (wq : FVec Ideal S64x512 .f32) (kk : FVec Ideal S4096x64 .f32) :
    FVec Ideal S512x4096 .f32 :=
  mulf
    (matmul (F := Ideal) dot_S512x64_S4096x64_S512x4096_1_1_0_0_n_n (some .fp32)
      (matmul (F := Ideal) dot_S512x512_S64x512_S512x64_1_1_0_0_n_n (some .fp32)
        (shapeCast S512x512 x shapeCasts_S1x512x512_S512x512) wq (constant (F := Ideal) S512x64 .f32 0x00000000#32))
      kk (constant (F := Ideal) S512x4096 .f32 0x00000000#32))
    (broadcast S512x4096 (Scalar.ofBits (F := Ideal) .f32 0x41000000#32))

/-- The exponential of each score less its row's lane maximum. -/
def expShifted (sc : FVec Ideal S512x4096 .f32) : FVec Ideal S512x4096 .f32 :=
  exp (subf sc
    (broadcastTo S512x4096
      (shapeCast S512x1
        (multiReduction (F := Ideal) .maximumf [1] S512 sc 0xFF800000#32 reduces_S512x4096_S512 (.inl rfl) rfl)
        shapeCasts_S512_S512x1)
      broadcasts_S512x1_S512x4096))

/-- Each entry over its row's lane sum. -/
def overRowSum (ex : FVec Ideal S512x4096 .f32) : FVec Ideal S512x4096 .f32 :=
  divf ex
    (broadcastTo S512x4096
      (shapeCast S512x1
        (multiReduction (F := Ideal) .add [1] S512 ex 0x00000000#32 reduces_S512x4096_S512 (.inl rfl) rfl)
        shapeCasts_S512_S512x1)
      broadcasts_S512x1_S512x4096)

/-- Weights against the values, with the block's unit axis put back. -/
def weighted (p : FVec Ideal S512x4096 .f32) (vv : FVec Ideal S4096x64 .f32) : FVec Ideal S1x512x64 .f32 :=
  shapeCast S1x512x64
    (matmul (F := Ideal) dot_S512x4096_S4096x64_S512x64_1_0_0_1_n_n (some .fp32) p vv
      (constant (F := Ideal) S512x64 .f32 0x00000000#32))
    shapeCasts_S512x64_S1x512x64

/-- The stored tile is the normalized weights against the values. -/
theorem tile_eq (x : Vec Ideal S1x512x512 .f32) (wq : Vec Ideal S64x512 .f32) (kk vv : Vec Ideal S4096x64 .f32) :
    k0_pay4 (F := Ideal) x wq kk vv = weighted (overRowSum (expShifted (scores x wq kk))) vv := rfl

/-- A scaled score at (r, s) is the specification's score of query row r against key row s. -/
theorem scores_apply (x : Vec Ideal S1x512x512 .f32) (wq : Vec Ideal S64x512 .f32) (kk : Vec Ideal S4096x64 .f32)
    (r : Fin 512) (s : Fin 4096) :
    scores x wq kk (ix2 r s)
      = Cert.Attn.rowScore (fun k => ∑ e : Fin 512, x (ix3 0 r e) * wq (ix2 k e)) (fun s k => kk (ix2 s k)) s := by
  unfold scores Cert.Attn.rowScore
  refine (mulf_apply _ _ (ix2 r s)).trans ?_
  refine congrArg (· * Ideal.ofBits .f32 0x41000000#32) ?_
  refine (qk_apply _ kk r s).trans ?_
  refine Finset.sum_congr rfl fun k _ => congrArg (· * kk (ix2 s k)) ?_
  refine (proj512_apply _ wq r k).trans ?_
  exact Finset.sum_congr rfl fun e _ =>
    congrArg (· * wq (ix2 k e)) (shapeCast_1ab_ab_apply x shapeCasts_S1x512x512_S512x512 r e)

/-- The second stage at (r, s): the exponential of the entry less the fold of `max` over its row. -/
theorem expShifted_apply (sc : FVec Ideal S512x4096 .f32) (r : Fin 512) (s : Fin 4096) :
    expShifted sc (ix2 r s)
      = Ideal.exp (sc (ix2 r s)
          - (Finset.univ : Finset (Fin 4096)).fold max (Ideal.ofBits .f32 0xFF800000#32) (fun s' => sc (ix2 r s'))) := by
  unfold expShifted
  refine congrArg (fun m => Ideal.exp (sc (ix2 r s) - m)) ?_
  exact (column_apply _ r s).trans (laneMax_apply sc r)

/-- The third stage at (r, s): the entry over the sum of its row. -/
theorem overRowSum_apply (ex : FVec Ideal S512x4096 .f32) (r : Fin 512) (s : Fin 4096) :
    overRowSum ex (ix2 r s) = Ideal.div (ex (ix2 r s)) (∑ s' : Fin 4096, ex (ix2 r s')) := by
  unfold overRowSum
  refine congrArg (fun m => Ideal.div (ex (ix2 r s)) m) ?_
  exact (column_apply _ r s).trans (laneSum_apply ex r)

/-- the output tile, at (0, r, v): the attention row of the tile's row r -/
theorem tile_apply (x : Vec Ideal S1x512x512 .f32) (wq : Vec Ideal S64x512 .f32) (kk vv : Vec Ideal S4096x64 .f32)
    (r : Fin 512) (v : Fin 64) :
    k0_pay4 (F := Ideal) x wq kk vv (ix3 0 r v)
      = Cert.Attn.attnRow (fun k => ∑ e : Fin 512, x (ix3 0 r e) * wq (ix2 k e)) (fun s k => kk (ix2 s k))
          (fun s v' => vv (ix2 s v')) v := by
  rw [tile_eq]
  unfold weighted
  refine (shapeCast_ab_1ab_apply _ shapeCasts_S512x64_S1x512x64 0 r v).trans ?_
  refine (pv_apply _ vv r v).trans ?_
  unfold Cert.Attn.attnRow
  refine Finset.sum_congr rfl fun s _ => congrArg (· * vv (ix2 s v)) ?_
  have hsc : ∀ s' : Fin 4096, scores x wq kk (ix2 r s')
      = Cert.Attn.rowScore (fun k => ∑ e : Fin 512, x (ix3 0 r e) * wq (ix2 k e)) (fun s k => kk (ix2 s k)) s' :=
    scores_apply x wq kk r
  have hex : ∀ s' : Fin 4096, expShifted (scores x wq kk) (ix2 r s')
      = Cert.Attn.rowExp (fun k => ∑ e : Fin 512, x (ix3 0 r e) * wq (ix2 k e)) (fun s k => kk (ix2 s k)) s' := fun s' => by
    rw [expShifted_apply, hsc s']
    unfold Cert.Attn.rowExp Cert.Attn.rowMax
    exact congrArg (fun f : Fin 4096 → EReal => Ideal.exp (_ - (Finset.univ : Finset (Fin 4096)).fold max _ f))
      (funext hsc)
  rw [overRowSum_apply, hex s]
  unfold Cert.Attn.rowSum
  exact congrArg (fun f : Fin 4096 → EReal => Ideal.div _ (∑ s', f s')) (funext hex)

end Cert.KernelIdeal.Rows

end
-- ==== Proof.Whole.lean ====
/-
  The kernel's result array is the attention function of its four argument arrays.

  Grid point t writes back the [1, 512, 64] tile at block (t / 8, t mod 8, 0) of the [2, 4096, 64]
  result.  Entry (0, r, v) of that tile is the attention row of query row 512·(t mod 8) + r of
  batch t / 8 against the keys and values of the same batch: the tile's query rows are those rows
  of the batch's slab, and the scratch buffers hold the batch's key and value projections.  The
  sixteen tiles cover the result array, so after the run it is the attention function everywhere.
-/
import proofs.«107026_j2886218023621_2_alg».proof.Proof.Carried
import proofs.«107026_j2886218023621_2_alg».proof.Proof.KernelRows
import proofs.«107026_j2886218023621_2_alg».proof.Proof.AttnSpec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Carried Idealize.ShloMosaic.ValueIdx

variable (m : (ℓ : Loc nD τ sig) → Buf (Elt Ideal) ℓ) (ρ : Dev nD → PrngReg)

/-- The attention function of the argument arrays as launched. -/
abbrev result (c : Dev nD) : Buf (Elt Ideal) ((c : Thread nD τ).loc main_v0) :=
  Cert.Attn.attn (m ((c : Thread nD τ).loc main_arg0)) (m ((c : Thread nD τ).loc main_arg1))
    (m ((c : Thread nD τ).loc main_arg2)) (m ((c : Thread nD τ).loc main_arg3))

/-- Row r of the tile at point t is row 512·(t mod 8) + r of the array. -/
def rowOf (t : Fin cfg0.N) (r : Fin 512) : Fin 4096 :=
  ⟨512 * (t.val % 8) + r.val, by have := r.isLt; omega⟩

/-- The query tile's entry (0, r, e) is the slab's entry at the tile's row offset. -/
theorem queryTile_apply (t : Fin cfg0.N) (x0 : Vec Ideal S1x4096x512 .f32) (r : Fin 512) (e : Fin 512) :
    Stored.queryTile (grid0.coords t) x0 (ix3 0 r e) = x0 (ix3 0 (rowOf t r) e) := by
  obtain ⟨-, -, -, -, -, -, -, -, -, -, -, -, eq⟩ := idx_facts t
  unfold Stored.queryTile
  show x0 _ = x0 _
  congr 1
  funext a
  apply Fin.ext
  have ho := k0_off1_eq (grid0.coords t)
  match a with
  | ⟨0, _⟩ => show k0_off1 (grid0.coords t) 0 + 1 * 0 = 0; rw [ho]; rfl
  | ⟨1, _⟩ => show k0_off1 (grid0.coords t) 1 + 1 * r.val = 512 * (t.val % 8) + r.val; rw [ho]; show 512 * (grid0.coords t 1).val + 1 * r.val = _; rw [eq]; omega
  | ⟨2, _⟩ => show k0_off1 (grid0.coords t) 2 + 1 * e.val = e.val; rw [ho]; show 0 + 1 * e.val = e.val; omega

/-- Entry (0, r, v) of the tile point t leaves is the attention function at (t / 8, 512·(t mod 8) + r, v). -/
theorem tile_value (c : Dev nD) (t : Fin cfg0.N) (r : Fin 512) (v : Fin 64) :
    (outsAt0 m c t.val t.isLt).1 (ix3 0 r v) = result m c (ix3 (batchOf t) (rowOf t r) v) := by
  rw [tile_eq]
  refine (Cert.KernelIdeal.Rows.tile_apply _ _ _ _ r v).trans ?_
  show _ = Cert.Attn.attnRow _ _ _ v
  have hq : (fun k : Fin 64 => ∑ e : Fin 512, Stored.queryTile (grid0.coords t) (slab (m ((c : Thread nD τ).loc main_arg0)) (batchOf t)) (ix3 0 r e) * m ((c : Thread nD τ).loc main_arg1) (ix2 k e))
      = fun k => Cert.Attn.proj (m ((c : Thread nD τ).loc main_arg0)) (m ((c : Thread nD τ).loc main_arg1)) (batchOf t) (rowOf t r) k :=
    funext fun k => Finset.sum_congr rfl fun e _ => by rw [queryTile_apply]; rfl
  have hK : (fun (s : Fin 4096) (k : Fin 64) => keysOf m c (batchOf t) (ix2 s k))
      = fun s k => Cert.Attn.proj (m ((c : Thread nD τ).loc main_arg0)) (m ((c : Thread nD τ).loc main_arg2)) (batchOf t) s k :=
    funext fun s => funext fun k => (Cert.KernelIdeal.Rows.keyProj_apply _ _ s k).trans rfl
  have hV : (fun (s : Fin 4096) (v' : Fin 64) => valuesOf m c (batchOf t) (ix2 s v'))
      = fun s v' => Cert.Attn.proj (m ((c : Thread nD τ).loc main_arg0)) (m ((c : Thread nD τ).loc main_arg3)) (batchOf t) s v' :=
    funext fun s => funext fun v' => (Cert.KernelIdeal.Rows.valProj_apply _ _ s v').trans rfl
  rw [hq, hK, hV]

/-- What point t writes back is block t of the attention function. -/
theorem flushed_eq (c : Dev nD) (t : Fin cfg0.N) :
    (dats m 0 c).flushed 4 t = ((cfg0.win 4).blk t).view.read (Elt Ideal) (result m c) := by
  obtain ⟨-, -, -, -, -, -, -, -, -, e0, e1, e2, -⟩ := idx_facts t
  rw [Cert.KernelIdeal.Value.flushed4]
  funext y
  rw [View.read_apply]
  obtain ⟨r, v, rfl⟩ : ∃ (r : Fin 512) (v : Fin 64), y = ix3 (0 : Fin 1) r v :=
    ⟨y 1, y 2, (eq_ix3 y).trans (by
      have h : (y 0).val < 1 := (y 0).isLt
      have e : y 0 = (0 : Fin 1) := Fin.ext (by show (y 0).val = 0; omega)
      rw [e]; rfl)⟩
  refine (tile_value m c t r v).trans ?_
  congr 1
  funext a
  apply Fin.ext
  match a with
  | ⟨0, _⟩ => show t.val / 8 = win0_4.index t (0 : Fin 3) * 1 + 1 * 0; omega
  | ⟨1, _⟩ => show 512 * (t.val % 8) + r.val = win0_4.index t (1 : Fin 3) * 512 + 1 * r.val; omega
  | ⟨2, _⟩ => show v.val = win0_4.index t (2 : Fin 3) * 64 + 1 * v.val; omega

/-- An index of the result array is in point t's block iff each coordinate is in the block's range. -/
theorem mem_block (t : Fin cfg0.N) (i : S2x4096x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v0).slice (win0_4.rect t)).set ↔ _
  rw [View.set_slice_whole, Rect.mem_set_unit]
  exact Iff.rfl

/-- The point whose block holds row q of batch b. -/
def pointOf (i : S2x4096x64.Idx) : Fin cfg0.N :=
  ⟨8 * (i 0).val + (i 1).val / 512, by
    have h0 : (i 0).val < 2 := (i 0).isLt; have h1 : (i 1).val < 4096 := (i 1).isLt
    rw [N16]; omega⟩

/-- The sixteen tiles cover the result array. -/
theorem cover (i : S2x4096x64.Idx) : ∃ t : Fin cfg0.N, (cfg0.win 4).flush t = true ∧ i ∈ ((cfg0.win 4).blk t).view.set := by
  refine ⟨pointOf i, flush0_4 _, ?_⟩
  obtain ⟨-, -, -, -, -, -, -, -, -, e0, e1, e2, -⟩ := idx_facts (pointOf i)
  have h0 : (i 0).val < 2 := (i 0).isLt
  have h1 : (i 1).val < 4096 := (i 1).isLt
  have h2 : (i 2).val < 64 := (i 2).isLt
  have hv : (pointOf i).val = 8 * (i 0).val + (i 1).val / 512 := rfl
  rw [mem_block]
  intro a
  match a with
  | ⟨0, _⟩ => show win0_4.index (pointOf i) (0 : Fin 3) * 1 ≤ (i 0).val ∧ (i 0).val < win0_4.index (pointOf i) (0 : Fin 3) * 1 + 1; omega
  | ⟨1, _⟩ => show win0_4.index (pointOf i) (1 : Fin 3) * 512 ≤ (i 1).val ∧ (i 1).val < win0_4.index (pointOf i) (1 : Fin 3) * 512 + 512; omega
  | ⟨2, _⟩ => show win0_4.index (pointOf i) (2 : Fin 3) * 64 ≤ (i 2).val ∧ (i 2).val < win0_4.index (pointOf i) (2 : Fin 3) * 64 + 64; omega

/-- After the run the result array is the attention function. -/
theorem final (c : Dev nD) : (dats m 0 c).arrAt 4 cfg0.N = result m c :=
  (dats m 0 c).arrAt_eq_of_cover 4 (result m c) (fun t _ => flushed_eq m c t) cover

/-- The run: the result array at the attention function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.RefAttn.lean ====
/-
  The reference's result is the specification's function, index by index.

  The reference computes, for a batch b and a query row q: the three projections of X[b] against the
  rows of Wq, Wk, Wv; the scores Σ_k Q[b,q,k] · K[b,s,k], divided by one eighth; the row's maximum as
  a reduction from −∞ (taken once more against −∞); the exponentials of the scores less that
  maximum; their sum over the keys from 0; the quotients; and their sum against the value matrix.
  Each stage is read at an index with explicit coordinates and identified with the matching function
  of the specification. Three laws are used, none of which needs the inputs to be finite:
  division by one eighth is multiplication by eight on every extended real; the maximum of −∞ and x
  is x; zero plus x is x.
-/
import proofs.«107026_j2886218023621_2_alg».proof.Proof.Gen.ReferenceIdeal.Read
import proofs.«107026_j2886218023621_2_alg».proof.Proof.AttnSpec
import Idealize.ShloMosaic.PureOps.Reduce
import Idealize.ShloMosaic.PureOps.Ideal.Laws
import Idealize.ShloMosaic.Lib.ValueIdx
import Idealize.ShloMosaic.Lib.Pipeline.Value

noncomputable section

namespace Cert.ReferenceIdeal.RefAttn

open Cert.ReferenceIdeal Cert.ReferenceIdeal.Gen Cert.ReferenceIdeal.Read Idealize.ShloMosaic Idealize.ShloMosaic.ValueIdx
open Cert.Attn

/-! ## The three literals -/

/-- The word 0x3E000000 denotes one eighth. -/
theorem ofBits_eighth : Ideal.ofBits .f32 0x3E000000#32 = ((1 / 8 : ℝ) : EReal) := by
  simp [Ideal.ofBits, Ideal.ieee, -EReal.coe_mul]; norm_num

/-- The word 0x41000000 denotes eight. -/
theorem ofBits_eight : Ideal.ofBits .f32 0x41000000#32 = ((8 : ℝ) : EReal) := by
  simp [Ideal.ofBits, Ideal.ieee, -EReal.coe_mul]; norm_num

/-- The word 0xFF800000 denotes −∞. -/
theorem ofBits_negInf : Ideal.ofBits .f32 0xFF800000#32 = (⊥ : EReal) := by
  simp [Ideal.ofBits, Ideal.ieee]

/-- Division by one eighth is multiplication by eight, on every extended real. -/
theorem div_eighth (x : EReal) :
    Ideal.div x (Ideal.ofBits .f32 0x3E000000#32) = x * Ideal.ofBits .f32 0x41000000#32 := by
  rw [ofBits_eighth, ofBits_eight, Ideal.div_coe (by norm_num)]
  norm_num

/-! ## The projections -/

/-- A projection's left operand at (b, s, ·) over e is X at (b, s, e); its right operand is W at (k, e). -/
theorem lidx_v0 (b : Fin 2) (s : Fin 4096) (k : Fin 64) (e : Fin 512) :
    lidx_main_v0 (ix3 b s k) e = ix3 b s e :=
  funext fun a => by match a with | ⟨0, _⟩ => rfl | ⟨1, _⟩ => rfl | ⟨2, _⟩ => rfl
theorem ridx_v0 (b : Fin 2) (s : Fin 4096) (k : Fin 64) (e : Fin 512) :
    ridx_main_v0 (ix3 b s k) e = ix2 k e :=
  funext fun a => by match a with | ⟨0, _⟩ => rfl | ⟨1, _⟩ => rfl

/-- A projection of the reference at (b, s, k) is the specification's. -/
theorem v0_at (X : (⟨S2x4096x512, .f32⟩ : BufTy).Contents (Elt Ideal)) (W : (⟨S64x512, .f32⟩ : BufTy).Contents (Elt Ideal))
    (b : Fin 2) (s : Fin 4096) (k : Fin 64) :
    val_main_v0 (F := Ideal) X W (ix3 b s k) = proj X W b s k := by
  rw [val_main_v0_apply]
  exact Finset.sum_congr rfl fun e _ => by rw [lidx_v0, ridx_v0]

/-- The three projections are one function of the weight matrix. -/
theorem v1_eq_v0 (X : (⟨S2x4096x512, .f32⟩ : BufTy).Contents (Elt Ideal)) (W : (⟨S64x512, .f32⟩ : BufTy).Contents (Elt Ideal)) :
    val_main_v1 (F := Ideal) X W = val_main_v0 (F := Ideal) X W := rfl
theorem v2_eq_v0 (X : (⟨S2x4096x512, .f32⟩ : BufTy).Contents (Elt Ideal)) (W : (⟨S64x512, .f32⟩ : BufTy).Contents (Elt Ideal)) :
    val_main_v2 (F := Ideal) X W = val_main_v0 (F := Ideal) X W := rfl

/-! ## The scores -/

/-- The score's contraction at (b, q, s) over k reads the queries at (b, q, k) and the keys at (b, s, k). -/
theorem lidx_v3 (b : Fin 2) (q s : Fin 4096) (k : Fin 64) :
    lidx_main_v3 (ix3 b q s) k = ix3 b q k :=
  funext fun a => by match a with | ⟨0, _⟩ => rfl | ⟨1, _⟩ => rfl | ⟨2, _⟩ => rfl
theorem ridx_v3 (b : Fin 2) (q s : Fin 4096) (k : Fin 64) :
    ridx_main_v3 (ix3 b q s) k = ix3 b s k :=
  funext fun a => by match a with | ⟨0, _⟩ => rfl | ⟨1, _⟩ => rfl | ⟨2, _⟩ => rfl

/-- The unscaled score at (b, q, s): query row q against key row s. -/
theorem v3_at (X : (⟨S2x4096x512, .f32⟩ : BufTy).Contents (Elt Ideal)) (Wq Wk : (⟨S64x512, .f32⟩ : BufTy).Contents (Elt Ideal))
    (b : Fin 2) (q s : Fin 4096) :
    val_main_v3 (F := Ideal) X Wq Wk (ix3 b q s) = ∑ k : Fin 64, proj X Wq b q k * proj X Wk b s k := by
  rw [val_main_v3_apply]
  exact Finset.sum_congr rfl fun k _ => by rw [lidx_v3, ridx_v3, v1_eq_v0, v0_at, v0_at]

/-- The scaled score at (b, q, s): the reference divides by one eighth, the specification multiplies by eight. -/
theorem v5_at (X : (⟨S2x4096x512, .f32⟩ : BufTy).Contents (Elt Ideal)) (Wq Wk : (⟨S64x512, .f32⟩ : BufTy).Contents (Elt Ideal))
    (b : Fin 2) (q s : Fin 4096) :
    val_main_v5 (F := Ideal) X Wq Wk (ix3 b q s)
      = rowScore (fun k => proj X Wq b q k) (fun s k => proj X Wk b s k) s := by
  rw [val_main_v5_apply, v3_at, val_main_v4_apply, val_main_cst_apply, Ideal.hostDivf_def, Ideal.ofBits_def, div_eighth]
  rfl

/-! ## The row's maximum -/

/-- The key axis of a [2, 4096, 4096] array reduces into [2, 4096]. -/
theorem reduces_keys : S2x4096x4096.Reduces [2] S2x4096 := by decide

/-- The reduced index (b, q) with key s put back is (b, q, s). -/
theorem lift_keys (b : Fin 2) (q : Fin 4096) (s : Fin (S2x4096x4096.size 2)) :
    reduces_keys.lift (ix2 b q) s = ix3 b q (⟨s.val, s.isLt⟩ : Fin 4096) := by
  funext c; apply Fin.ext
  match c with | ⟨0, _⟩ => rfl | ⟨1, _⟩ => rfl | ⟨2, _⟩ => rfl

/-- The reduction with a maximum body over the keys, from −∞, at (b, q) is the fold of max over the row's scores. -/
theorem v6_at (X : (⟨S2x4096x512, .f32⟩ : BufTy).Contents (Elt Ideal)) (Wq Wk : (⟨S64x512, .f32⟩ : BufTy).Contents (Elt Ideal))
    (b : Fin 2) (q : Fin 4096) :
    val_main_v6 (F := Ideal) X Wq Wk (ix2 b q)
      = rowMax (fun k => proj X Wq b q k) (fun s k => proj X Wk b s k) := by
  unfold val_main_v6
  refine (Host.reduce_eq_fold_single FloatOps.maximumf _ _ reducesTo_S2x4096x4096_S2x4096_d2 reduces_keys h_S_ (ix2 b q)).trans ?_
  have hf : (val_main_v5 (F := Ideal) X Wq Wk ∘ reduces_keys.lift (ix2 b q))
      = rowScore (fun k => proj X Wq b q k) (fun s k => proj X Wk b s k) := funext fun s => by
    show val_main_v5 (F := Ideal) X Wq Wk (reduces_keys.lift (ix2 b q) s) = _
    rw [lift_keys, v5_at]
    rfl
  exact congrArg (fun f => Finset.fold max (Ideal.ofBits .f32 0xFF800000#32) f (Finset.univ : Finset (Fin 4096))) hf

/-- Taken once more against −∞ the maximum is unchanged. -/
theorem v8_at (X : (⟨S2x4096x512, .f32⟩ : BufTy).Contents (Elt Ideal)) (Wq Wk : (⟨S64x512, .f32⟩ : BufTy).Contents (Elt Ideal))
    (b : Fin 2) (q : Fin 4096) :
    val_main_v8 (F := Ideal) X Wq Wk (ix2 b q)
      = rowMax (fun k => proj X Wq b q k) (fun s k => proj X Wk b s k) := by
  rw [val_main_v8_apply, val_main_v7_apply, val_main_cst_1_apply, v6_at, Ideal.maximumf_def, Ideal.ofBits_def, ofBits_negInf]
  exact max_bot_left _

/-! ## The exponentials and their sum -/

/-- The maximum's two broadcasts read (b, q, s) at (b, q). -/
theorem idx_v10_v9 (b : Fin 2) (q s : Fin 4096) : idx_main_v9 (idx_main_v10 (ix3 b q s)) = ix2 b q :=
  funext fun a => by match a with | ⟨0, _⟩ => rfl | ⟨1, _⟩ => rfl

/-- The exponential of the score less the row's maximum, at (b, q, s). -/
theorem v12_at (X : (⟨S2x4096x512, .f32⟩ : BufTy).Contents (Elt Ideal)) (Wq Wk : (⟨S64x512, .f32⟩ : BufTy).Contents (Elt Ideal))
    (b : Fin 2) (q s : Fin 4096) :
    val_main_v12 (F := Ideal) X Wq Wk (ix3 b q s)
      = rowExp (fun k => proj X Wq b q k) (fun s k => proj X Wk b s k) s := by
  rw [val_main_v12_apply, val_main_v11_apply, v5_at, val_main_v10_apply, val_main_v9_apply, idx_v10_v9, v8_at,
    Ideal.hostUnary_exp_def, Ideal.subf_def]
  rfl

/-- The sum's operand at (b, q) over s is the array at (b, q, s). -/
theorem idx_v13 (b : Fin 2) (q s : Fin 4096) : idx_main_v13 (ix2 b q) s = ix3 b q s :=
  funext fun a => by match a with | ⟨0, _⟩ => rfl | ⟨1, _⟩ => rfl | ⟨2, _⟩ => rfl

/-- The sum of the exponentials over the keys, from zero, at (b, q). -/
theorem v13_at (X : (⟨S2x4096x512, .f32⟩ : BufTy).Contents (Elt Ideal)) (Wq Wk : (⟨S64x512, .f32⟩ : BufTy).Contents (Elt Ideal))
    (b : Fin 2) (q : Fin 4096) :
    val_main_v13 (F := Ideal) X Wq Wk (ix2 b q)
      = rowSum (fun k => proj X Wq b q k) (fun s k => proj X Wk b s k) := by
  rw [val_main_v13_apply, val_main_cst_2_apply, Ideal.ofBits_def, Ideal.ofBits_zero_f32, zero_add]
  exact Finset.sum_congr rfl fun s _ => by rw [idx_v13, v12_at]

/-! ## The weights and the result -/

/-- The sum's two broadcasts read (b, q, s) at (b, q). -/
theorem idx_v15_v14 (b : Fin 2) (q s : Fin 4096) : idx_main_v14 (idx_main_v15 (ix3 b q s)) = ix2 b q :=
  funext fun a => by match a with | ⟨0, _⟩ => rfl | ⟨1, _⟩ => rfl

/-- The softmax weight at (b, q, s). -/
theorem v16_at (X : (⟨S2x4096x512, .f32⟩ : BufTy).Contents (Elt Ideal)) (Wq Wk : (⟨S64x512, .f32⟩ : BufTy).Contents (Elt Ideal))
    (b : Fin 2) (q s : Fin 4096) :
    val_main_v16 (F := Ideal) X Wq Wk (ix3 b q s)
      = Ideal.div (rowExp (fun k => proj X Wq b q k) (fun s k => proj X Wk b s k) s)
          (rowSum (fun k => proj X Wq b q k) (fun s k => proj X Wk b s k)) := by
  rw [val_main_v16_apply, v12_at, val_main_v15_apply, val_main_v14_apply, idx_v15_v14, v13_at, Ideal.hostDivf_def]

/-- The last contraction at (b, q, v) over s reads the weight at (b, q, s) and the value matrix at (b, s, v). -/
theorem lidx_v17 (b : Fin 2) (q : Fin 4096) (v : Fin 64) (s : Fin 4096) :
    lidx_main_v17 (ix3 b q v) s = ix3 b q s :=
  funext fun a => by match a with | ⟨0, _⟩ => rfl | ⟨1, _⟩ => rfl | ⟨2, _⟩ => rfl
theorem ridx_v17 (b : Fin 2) (q : Fin 4096) (v : Fin 64) (s : Fin 4096) :
    ridx_main_v17 (ix3 b q v) s = ix3 b s v :=
  funext fun a => by match a with | ⟨0, _⟩ => rfl | ⟨1, _⟩ => rfl | ⟨2, _⟩ => rfl

/-- The reference's result is the specification's attention function of the four arguments. -/
theorem ref_eq (X : (⟨S2x4096x512, .f32⟩ : BufTy).Contents (Elt Ideal)) (Wq Wk Wv : (⟨S64x512, .f32⟩ : BufTy).Contents (Elt Ideal)) :
    Cert.ReferenceIdeal.Read.val_main_v17 (F := Ideal) X Wq Wk Wv = Cert.Attn.attn X Wq Wk Wv := by
  funext i
  obtain ⟨b, q, v, rfl⟩ : ∃ (b : Fin 2) (q : Fin 4096) (v : Fin 64), i = ix3 b q v := ⟨i 0, i 1, i 2, eq_ix3 i⟩
  rw [val_main_v17_apply]
  show _ = attnRow (fun k => proj X Wq b q k) (fun s k => proj X Wk b s k) (fun s v => proj X Wv b s v) v
  unfold attnRow
  exact Finset.sum_congr rfl fun s _ => by rw [lidx_v17, ridx_v17, v16_at, v2_eq_v0, v0_at]

end Cert.ReferenceIdeal.RefAttn

end
-- ==== Proof.lean ====
/-
  A fused single-head attention kernel against its plain reference, over the extended reals.

  Both programs take X : f32[2, 4096, 512] and three weight matrices f32[64, 512] and return
  f32[2, 4096, 64].  The reference projects X against the three weights, forms the 4096 × 4096
  score matrix of each batch, divides it by one eighth, takes the softmax along the keys and
  multiplies by the value projection.  The kernel runs a 2 × 8 grid: at the first tile of a batch
  it stores the batch's key and value projections into two scratch buffers, and at every tile it
  projects 512 query rows, scores them against the stored keys, multiplies by eight, and computes
  the same softmax and product for those rows.

  At the ideal instance every float operation is the exact one, so both results are one function
  of the arguments (Proof/AttnSpec.lean): the kernel's, tile by tile, by carrying the scratch
  contents across the grid (Proof/Stored.lean, Proof/Carried.lean, Proof/KernelRows.lean,
  Proof/Whole.lean); the reference's, stage by stage (Proof/RefAttn.lean).  The only laws used are
  that dividing by one eighth is multiplying by eight, that the maximum with −∞ and the sum with
  zero change nothing, and that a sum does not depend on how its index set is named; none needs
  the inputs finite, and the precondition is not opened.  The kernel's idealization rewrote
  nothing, so the preservation claim has no conjunct.
-/
import proofs.«107026_j2886218023621_2_alg».proof.Defs
import proofs.«107026_j2886218023621_2_alg».proof.Proof.Gen.Kernel
import proofs.«107026_j2886218023621_2_alg».proof.Proof.Gen.Kernel.Skeleton
import proofs.«107026_j2886218023621_2_alg».proof.Proof.Gen.Kernel.Launch
import proofs.«107026_j2886218023621_2_alg».proof.Proof.Gen.Kernel.Points
import proofs.«107026_j2886218023621_2_alg».proof.Proof.Gen.Kernel.Frame
import proofs.«107026_j2886218023621_2_alg».proof.Proof.Gen.KernelIdeal
import proofs.«107026_j2886218023621_2_alg».proof.Proof.Gen.KernelIdeal.Skeleton
import proofs.«107026_j2886218023621_2_alg».proof.Proof.Gen.KernelIdeal.Launch
import proofs.«107026_j2886218023621_2_alg».proof.Proof.Gen.KernelIdeal.Points
import proofs.«107026_j2886218023621_2_alg».proof.Proof.Gen.KernelIdeal.Frame
import proofs.«107026_j2886218023621_2_alg».proof.Proof.Gen.ReferenceIdeal
import proofs.«107026_j2886218023621_2_alg».proof.Proof.Gen.Pre_finite_inputs
import proofs.«107026_j2886218023621_2_alg».proof.Proof.Gen.KernelIdeal.Value
import proofs.«107026_j2886218023621_2_alg».proof.Proof.Gen.ReferenceIdeal.Run
import proofs.«107026_j2886218023621_2_alg».proof.Proof.Gen.ReferenceIdeal.Read
import proofs.«107026_j2886218023621_2_alg».proof.Proof.Whole
import proofs.«107026_j2886218023621_2_alg».proof.Proof.RefAttn
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read at the ideal instance. -/
theorem preserves : Cert.preserves_Kernel_KernelIdeal := trivial

/-- From arguments that agree, both programs end with the attention function of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefAttn.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
